-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S4x1x2048 : Shape := ⟨3, ![4, 1, 2048]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S4x1x2048 : S_.BroadcastsInDim S4x1x2048 (![] : Fin 0 → Fin S4x1x2048.rank)
  reducesTo_S4x1x2048_S_d0_1_2 : S4x1x2048.ReducesTo [0, 1, 2] S_

variable [Facts]

def fn {F : FTy → Type} [FloatOps F] (main_arg0 : FVec F S8x4096x2048 .f32) (main_arg1 : FVec F S4x1x2048 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S4x1x2048 .f32 := Host.absf main_arg1
  let main_cst_0 : FVec F S_ .f32 := constant S_ .f32 0x7F800000#32
  let main_v5 : FVec F S4x1x2048 .f32 := broadcastInDim S4x1x2048 ![] bcast_S_S4x1x2048 main_cst_0
  let main_v6 : IVec S4x1x2048 1 := cmpf .olt main_v4 main_v5
  let main_c_1 : IVec S_ 1 := constantI S_ 1 1#1
  let main_v7 : IVec S_ 1 := (fun x v => Host.reduce IntOp.andi x v reducesTo_S4x1x2048_S_d0_1_2 h_S_) main_v6 main_c_1
  let main_v8 : IVec S_ 1 := andi main_v3 main_v7
  main_v8
-- ==== Kernel.lean ====
abbrev S8x4096x2048 : Shape := ⟨3, ![8, 4096, 2048]⟩
abbrev S4x1x2048 : Shape := ⟨3, ![4, 1, 2048]⟩
abbrev S1x1024x2048 : Shape := ⟨3, ![1, 1024, 2048]⟩
abbrev S3x2048 : Shape := ⟨2, ![3, 2048]⟩
abbrev S1024x2048 : Shape := ⟨2, ![1024, 2048]⟩
abbrev S1027x2048 : Shape := ⟨2, ![1027, 2048]⟩
abbrev S1x1x2048 : Shape := ⟨3, ![1, 1, 2048]⟩
abbrev S2048 : Shape := ⟨1, ![2048]⟩
abbrev S1x2048 : Shape := ⟨2, ![1, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8x4096x2048, .f32⟩
  | .hbm, ⟨1, _⟩ => ⟨S4x1x2048, .f32⟩
  | .hbm, ⟨2, _⟩ => ⟨S8x4096x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S4x1x2048, .f32⟩
  | .local _ .vmem, ⟨3, _⟩ => ⟨S1x1024x2048, .f32⟩
  | .local _ .vmem, ⟨4, _⟩ => ⟨S1x1024x2048, .f32⟩
  | .local _ .vmem, ⟨5, _⟩ => ⟨S3x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S3x2048_S3x2048_0_0 : ∀ a, (![0, 0] : Fin 2 → Nat) a + S3x2048.size a ≤ S3x2048.size a
  h_S3x2048 : 0 < S3x2048.numel
  shapeCasts_S3x2048_S3x2048 : S3x2048.ShapeCasts S3x2048
  inb_S4x1x2048_S4x1x2048_0_0_0 : ∀ a, (![0, 0, 0] : Fin 3 → Nat) a + S4x1x2048.size a ≤ S4x1x2048.size a
  h_S4x1x2048 : 0 < S4x1x2048.numel
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  concatenates_S3x2048_S1024x2048_S1027x2048_d0 : Shape.Concatenates [S3x2048, S1024x2048] S1027x2048 0
  slices_S4x1x2048_o0_0_0_S1x1x2048 : S4x1x2048.Slices ![0, 0, 0] S1x1x2048
  shapeCasts_S1x1x2048_S2048 : S1x1x2048.ShapeCasts S2048
  slices_S1027x2048_o0_0_S1024x2048 : S1027x2048.Slices ![0, 0] S1024x2048
  shapeCasts_S2048_S1x2048 : S2048.ShapeCasts S1x2048
  broadcasts_S1x2048_S1024x2048 : S1x2048.Broadcasts S1024x2048
  slices_S4x1x2048_o1_0_0_S1x1x2048 : S4x1x2048.Slices ![1, 0, 0] S1x1x2048
  slices_S1027x2048_o1_0_S1024x2048 : S1027x2048.Slices ![1, 0] S1024x2048
  slices_S4x1x2048_o2_0_0_S1x1x2048 : S4x1x2048.Slices ![2, 0, 0] S1x1x2048
  slices_S1027x2048_o2_0_S1024x2048 : S1027x2048.Slices ![2, 0] S1024x2048
  slices_S4x1x2048_o3_0_0_S1x1x2048 : S4x1x2048.Slices ![3, 0, 0] S1x1x2048
  slices_S1027x2048_o3_0_S1024x2048 : S1027x2048.Slices ![3, 0] S1024x2048
  shapeCasts_S1024x2048_S1x1024x2048 : S1024x2048.ShapeCasts S1x1024x2048
  slices_S1024x2048_o1021_0_S3x2048 : S1024x2048.Slices ![1021, 0] S3x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x4096x2048.size a
  hwx0_0 : ∀ i : grid0.Coords, EltTy.bits .f32 = 32 ∨ (Rect.block (s := S8x4096x2048) S1x1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x1x2048.size a ≤ S4x1x2048.size a
  hwx0_1 : ∀ i : grid0.Coords, EltTy.bits .f32 = 32 ∨ (Rect.block (s := S4x1x2048) S4x1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x2048.size a ≤ S8x4096x2048.size a
  hwx0_2 : ∀ i : grid0.Coords, EltTy.bits .f32 = 32 ∨ (Rect.block (s := S8x4096x2048) S1x1024x2048.size (cc0_transform_2 i) (hinb0_2 i)).WholeWords (EltTy.packing .f32)

variable [Facts₀]

abbrev win0_0 : Pipeline.Window sig grid0 :=
  Pipeline.Window.ofSpec (Memref.whole main_arg0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4096x2048 : Shape := ⟨3, ![8, 4096, 2048]⟩
abbrev S4x1x2048 : Shape := ⟨3, ![4, 1, 2048]⟩
abbrev S4x2048 : Shape := ⟨2, ![4, 2048]⟩
abbrev S_ : Shape := ⟨0, ![]⟩
abbrev S8x4099x2048 : Shape := ⟨3, ![8, 4099, 2048]⟩
abbrev S1x2048 : Shape := ⟨2, ![1, 2048]⟩
abbrev S2048 : Shape := ⟨1, ![2048]⟩
abbrev S1x1x2048 : Shape := ⟨3, ![1, 1, 2048]⟩

abbrev nBuf : Space → Nat
  | .hbm => 57
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S4x1x2048, .f32⟩
  | .hbm, ⟨2, _⟩ => ⟨S4x2048, .f32⟩
  | .hbm, ⟨3, _⟩ => ⟨S_, .i32⟩
  | .hbm, ⟨4, _⟩ => ⟨S_, .f32⟩
  | .hbm, ⟨5, _⟩ => ⟨S8x4099x2048, .f32⟩
  | .hbm, ⟨6, _⟩ => ⟨S_, .f32⟩
  | .hbm, ⟨7, _⟩ => ⟨S8x4096x2048, .f32⟩
  | .hbm, ⟨8, _⟩ => ⟨S1x2048, .f32⟩
  | .hbm, ⟨9, _⟩ => ⟨S2048, .f32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S8x4096x2048, .f32⟩
  | .hbm, ⟨14, _⟩ => ⟨S1x1x2048, .f32⟩
  | .hbm, ⟨15, _⟩ => ⟨S8x4096x2048, .f32⟩
  | .hbm, ⟨16, _⟩ => ⟨S8x4096x2048, .f32⟩
  | .hbm, ⟨17, _⟩ => ⟨S8x4096x2048, .f32⟩
  | .hbm, ⟨18, _⟩ => ⟨S1x2048, .f32⟩
  | .hbm, ⟨19, _⟩ => ⟨S2048, .f32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S8x4096x2048, .f32⟩
  | .hbm, ⟨24, _⟩ => ⟨S1x1x2048, .f32⟩
  | .hbm, ⟨25, _⟩ => ⟨S8x4096x2048, .f32⟩
  | .hbm, ⟨26, _⟩ => ⟨S8x4096x2048, .f32⟩
  | .hbm, ⟨27, _⟩ => ⟨S8x4096x2048, .f32⟩
  | .hbm, ⟨28, _⟩ => ⟨S1x2048, .f32⟩
  | .hbm, ⟨29, _⟩ => ⟨S2048, .f32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S8x4096x2048, .f32⟩
  | .hbm, ⟨34, _⟩ => ⟨S1x1x2048, .f32⟩
  | .hbm, ⟨35, _⟩ => ⟨S8x4096x2048, .f32⟩
  | .hbm, ⟨36, _⟩ => ⟨S8x4096x2048, .f32⟩
  | .hbm, ⟨37, _⟩ => ⟨S8x4096x2048, .f32⟩
  | .hbm, ⟨38, _⟩ => ⟨S1x2048, .f32⟩
  | .hbm, ⟨39, _⟩ => ⟨S2048, .f32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S8x4096x2048, .f32⟩
  | .hbm, ⟨44, _⟩ => ⟨S1x1x2048, .f32⟩
  | .hbm, ⟨45, _⟩ => ⟨S8x4096x2048, .f32⟩
  | .hbm, ⟨46, _⟩ => ⟨S8x4096x2048, .f32⟩
  | .hbm, ⟨47, _⟩ => ⟨S8x4096x2048, .f32⟩
  | .hbm, ⟨48, _⟩ => ⟨S8x4096x2048, .f32⟩
  | .hbm, ⟨49, _⟩ => ⟨S8x4096x2048, .f32⟩
  | .hbm, ⟨50, _⟩ => ⟨S_, .f32⟩
  | .hbm, ⟨51, _⟩ => ⟨S8x4096x2048, .f32⟩
  | .hbm, ⟨52, _⟩ => ⟨S8x4096x2048, .f32⟩
  | .hbm, ⟨53, _⟩ => ⟨S_, .f32⟩
  | .hbm, ⟨54, _⟩ => ⟨S8x4096x2048, .f32⟩
  | .hbm, ⟨55, _⟩ => ⟨S8x4096x2048, .f32⟩
  | .hbm, ⟨56, _⟩ => ⟨S8x4096x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_c_1 : Ref sig .tc := ⟨.hbm, 11, rfl⟩
abbrev main_c_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_3 : Ref sig .tc := ⟨.hbm, 20, rfl⟩
abbrev main_c_4 : Ref sig .tc := ⟨.hbm, 21, rfl⟩
abbrev main_c_5 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_6 : Ref sig .tc := ⟨.hbm, 30, rfl⟩
abbrev main_c_7 : Ref sig .tc := ⟨.hbm, 31, rfl⟩
abbrev main_c_8 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_9 : Ref sig .tc := ⟨.hbm, 40, rfl⟩
abbrev main_c_10 : Ref sig .tc := ⟨.hbm, 41, rfl⟩
abbrev main_c_11 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_call1_v5 : Ref sig .tc := ⟨.hbm, 55, rfl⟩
abbrev main_v31 : Ref sig .tc := ⟨.hbm, 56, rfl⟩

abbrev nD : Nat := 1
abbrev τ : Topo := Topo.v7x

variable {F : FTy → Type} [FloatOps F]

class Facts₀ : Prop where
  shapeCasts_S4x1x2048_S4x2048 : S4x1x2048.ShapeCasts S4x2048
  pads_S8x4096x2048_S8x4099x2048_000_300_000 : S8x4096x2048.Pads (![0, 3, 0] : Fin 3 → Nat) ![0, 0, 0] ![0, 0, 0] S8x4099x2048
  h_S_ : 0 < S_.numel
  bcast_S_S8x4096x2048 : S_.BroadcastsInDim S8x4096x2048 (![] : Fin 0 → Fin S8x4096x2048.rank)
  slices_S4x2048_S1x2048_0_0 : S4x2048.Slices ![0, 0] S1x2048
  shapeCasts_S1x2048_S2048 : S1x2048.ShapeCasts S2048
  sliceFits_S8x4099x2048_S8x4096x2048 : S8x4099x2048.Slices (fun _ => 0) S8x4096x2048
  bcast_S2048_S1x1x2048_2 : S2048.BroadcastsInDim S1x1x2048 (![2] : Fin 1 → Fin S1x1x2048.rank)
  bcast_S1x1x2048_S8x4096x2048_0_1_2 : S1x1x2048.BroadcastsInDim S8x4096x2048 (![0, 1, 2] : Fin 3 → Fin S8x4096x2048.rank)
  slices_S4x2048_S1x2048_1_0 : S4x2048.Slices ![1, 0] S1x2048
  slices_S4x2048_S1x2048_2_0 : S4x2048.Slices ![2, 0] S1x2048
  slices_S4x2048_S1x2048_3_0 : S4x2048.Slices ![3, 0] S1x2048

variable [Facts₀]

class Facts : Prop extends Facts₀ where

variable [Facts]
-- ==== Proof.Pieces.lean ====
/-
  What one run of the kernel body leaves behind, as values.  The body has two cases: at the first time tile of a batch
  row it first stores zeros into the three carried rows, otherwise it finds there what the tile before left.  In both
  cases it then loads the filter, the tile of the input and the carried rows, stores ONE covering block into the output
  tile — the body's arithmetic (`k0_pay4`) of those three loads — and stores the tile's last three rows
  (`k0_pay1` of `k0_pay5`) into the carried rows.  So, for any float instance:

    first tile:  output tile = k0_pay4 filter tile zeros,     carried rows after = last three rows of the tile
    later tile:  output tile = k0_pay4 filter tile carried,   carried rows after = last three rows of the tile
-/
import proofs.«125260_j5016521802520_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Found

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later tile's output: the body's arithmetic of the filter, the tile and the rows carried in. -/
theorem out_later (c : Dev nD) (i : grid0.Coords) (a2 : Memref sig .tc .vmem S1x1024x2048 .f32) (h2 : a2.IsWhole)
    (a3 : Memref sig .tc .vmem S4x1x2048 .f32) (h3 : a3.IsWhole) (a4 : Memref sig .tc .vmem S1x1024x2048 .f32) (h4 : a4.IsWhole)
    (a5 : Memref sig .tc .vmem S3x2048 .f32) (h5 : a5.IsWhole) (hc : ¬cond0_0 i)
    (x0 : Vec F S1x1024x2048 .f32) (x1 : Vec F S4x1x2048 .f32) (xs0 : Vec F S3x2048 .f32) :
    out0_B_2 c i a2 h2 a3 h3 a4 h4 a5 h5 hc x0 x1 xs0 = k0_pay4 x1 x0 xs0 := by
  unfold out0_B_2
  rw [View.read_writes_eq_canon _ _ _ (cover0_B_2 c i a2 h2 a3 h3 a4 h4 a5 h5 hc x0 x1 xs0)]
  unfold kernelRun0_B
  dsimp only
  rw [View.canon_unit_zero hz3]
  simp only [View.readAt_eq_ld, h2.read_unread, h3.read_unread, h5.read_unread,
    View.ld_unit_zero (S := S1x1024x2048) hz3, View.ld_unit_zero (S := S4x1x2048) hz3, View.ld_unit_zero (S := S3x2048) hz2]

/-- A first tile's output: the same arithmetic over the zero rows the body has just stored and read back. -/
theorem out_first (c : Dev nD) (i : grid0.Coords) (a2 : Memref sig .tc .vmem S1x1024x2048 .f32) (h2 : a2.IsWhole)
    (a3 : Memref sig .tc .vmem S4x1x2048 .f32) (h3 : a3.IsWhole) (a4 : Memref sig .tc .vmem S1x1024x2048 .f32) (h4 : a4.IsWhole)
    (a5 : Memref sig .tc .vmem S3x2048 .f32) (h5 : a5.IsWhole) (hc : cond0_0 i)
    (x0 : Vec F S1x1024x2048 .f32) (x1 : Vec F S4x1x2048 .f32) :
    out0_A_2 c i a2 h2 a3 h3 a4 h4 a5 h5 hc x0 x1 = k0_pay4 x1 x0 (k0_pay2 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz3, View.readCov_unit_zero (S := S3x2048) _ hz2]
  simp only [View.readAt_eq_ld, h2.read_unread, h3.read_unread,
    View.ld_unit_zero (S := S1x1024x2048) hz3, View.ld_unit_zero (S := S4x1x2048) hz3]

/-- The rows a first tile carries out: the tile's last three rows (the later store covers the zeros). -/
theorem carry_first (c : Dev nD) (i : grid0.Coords) (a2 : Memref sig .tc .vmem S1x1024x2048 .f32) (h2 : a2.IsWhole)
    (a3 : Memref sig .tc .vmem S4x1x2048 .f32) (h3 : a3.IsWhole) (a4 : Memref sig .tc .vmem S1x1024x2048 .f32) (h4 : a4.IsWhole)
    (a5 : Memref sig .tc .vmem S3x2048 .f32) (h5 : a5.IsWhole) (hc : cond0_0 i)
    (x0 : Vec F S1x1024x2048 .f32) (x1 : Vec F S4x1x2048 .f32) :
    sout0_A_0 c i a2 h2 a3 h3 a4 h4 a5 h5 hc x0 x1 = k0_pay1 (k0_pay5 x0) := by
  unfold sout0_A_0
  rw [View.read_writes_eq_canon _ _ _ (scover0_A_0 c i a2 h2 a3 h3 a4 h4 a5 h5 hc x0 x1)]
  unfold kernelRun0_A
  dsimp only
  sl_unfold_words
  rw [View.canon_cons_unit_zero (S := S3x2048) hz2]
  simp only [View.readAt_eq_ld, h2.read_unread, View.ld_unit_zero (S := S1x1024x2048) hz3]

/-- The rows a later tile carries out: the tile's last three rows, whatever was carried in. -/
theorem carry_later (c : Dev nD) (i : grid0.Coords) (a2 : Memref sig .tc .vmem S1x1024x2048 .f32) (h2 : a2.IsWhole)
    (a3 : Memref sig .tc .vmem S4x1x2048 .f32) (h3 : a3.IsWhole) (a4 : Memref sig .tc .vmem S1x1024x2048 .f32) (h4 : a4.IsWhole)
    (a5 : Memref sig .tc .vmem S3x2048 .f32) (h5 : a5.IsWhole) (hc : ¬cond0_0 i)
    (x0 : Vec F S1x1024x2048 .f32) (x1 : Vec F S4x1x2048 .f32) (xs0 : Vec F S3x2048 .f32) :
    sout0_B_0 c i a2 h2 a3 h3 a4 h4 a5 h5 hc x0 x1 xs0 = k0_pay1 (k0_pay5 x0) := by
  unfold sout0_B_0
  rw [View.read_writes_eq_canon _ _ _ (scover0_B_0 c i a2 h2 a3 h3 a4 h4 a5 h5 hc x0 x1 xs0)]
  unfold kernelRun0_B
  dsimp only
  sl_unfold_words
  rw [View.canon_unit_zero hz2]
  simp only [View.readAt_eq_ld, h2.read_unread, View.ld_unit_zero (S := S1x1024x2048) hz3]

end Cert.KernelIdeal.Found

end
-- ==== Proof.Spec.lean ====
/-
  The function both programs compute, index by index over the extended reals.

  Write x for the input of shape [8, 4096, 2048] (batch, time, channel) and w for the depthwise filter of
  shape [4, 1, 2048] (tap, 1, channel).  Let P be x with three rows of zeros put in front of the time axis,
  P(b, s, d) = 0 for s < 3 and P(b, s, d) = x(b, s - 3, d) for 3 ≤ s < 4099.  The causal convolution is

      A(b, t, d) = ((w(0,0,d)·P(b,t,d) + w(1,0,d)·P(b,t+1,d)) + w(2,0,d)·P(b,t+2,d)) + w(3,0,d)·P(b,t+3,d)

  (the sum bracketed from the left, as both programs add it), and the result is A · 1/(1 + e^(-A)).
-/
import Idealize.ShloMosaic.PureOps.Ideal
import Idealize.ShloMosaic.PureOps.Ideal.Laws
import Idealize.ShloMosaic.Lib.ValueIdx

noncomputable section

namespace Cert.ConvSilu

open Idealize.ShloMosaic Idealize.ShloMosaic.ValueIdx

/-- The input's shape: batch × time × channel. -/
abbrev SX : Shape := ⟨3, ![8, 4096, 2048]⟩
/-- The filter's shape: tap × 1 × channel. -/
abbrev SW : Shape := ⟨3, ![4, 1, 2048]⟩

/-- Row `s` of the input padded in front with three zero rows along time: zero for `s < 3`, row `s - 3` of the
    input for `3 ≤ s < 4099` (and zero again beyond, where nothing reads it). -/
def padded (x : SX.Idx → EReal) (b : Fin 8) (s : ℕ) (d : Fin 2048) : EReal :=
  if h : 3 ≤ s ∧ s - 3 < 4096 then x (ix3 b ⟨s - 3, h.2⟩ d) else 0

/-- A padded row at or past the third is the input's row three earlier. -/
theorem padded_of_ge (x : SX.Idx → EReal) (b : Fin 8) (s : ℕ) (d : Fin 2048) (r : Fin 4096) (hr : r.val + 3 = s) :
    padded x b s d = x (ix3 b r d) := by
  unfold padded
  rw [dif_pos ⟨by omega, by have := r.isLt; omega⟩]
  exact congrArg (fun q => x (ix3 b q d)) (Fin.ext (by show s - 3 = r.val; omega))

/-- The first three padded rows are zero. -/
theorem padded_of_lt (x : SX.Idx → EReal) (b : Fin 8) (s : ℕ) (d : Fin 2048) (hs : s < 3) : padded x b s d = 0 := by
  unfold padded
  rw [dif_neg (by omega)]

/-- The four-tap sum at batch `b`, time `t`, channel `d`, bracketed from the left. -/
def conv (x : SX.Idx → EReal) (w : SW.Idx → EReal) (b : Fin 8) (t : ℕ) (d : Fin 2048) : EReal :=
  w (ix3 0 0 d) * padded x b t d + w (ix3 1 0 d) * padded x b (t + 1) d + w (ix3 2 0 d) * padded x b (t + 2) d
    + w (ix3 3 0 d) * padded x b (t + 3) d

/-- `a · 1/(1 + e^(-a))` on the extended reals. -/
def silu (a : EReal) : EReal := a * Ideal.logistic a

/-- The whole result as one function of the two argument arrays. -/
def result (x : SX.Idx → EReal) (w : SW.Idx → EReal) : SX.Idx → EReal :=
  fun i => silu (conv x w (i 0) (i 1).val (i 2))

theorem result_apply (x : SX.Idx → EReal) (w : SW.Idx → EReal) (b : Fin 8) (t : Fin 4096) (d : Fin 2048) :
    result x w (ix3 b t d) = silu (conv x w b t.val d) := rfl

/-- The single-precision word of 1.0 denotes the real number one. -/
theorem one_f32 : Ideal.ofBits .f32 0x3F800000#32 = 1 := by
  simp [Ideal.ofBits, Ideal.ieee, -EReal.coe_mul]; norm_num

/-- The quotient `1 / (1 + e^(-a))` spelt with the word of 1.0 twice is the logistic function. -/
theorem div_one_add_exp_neg (a : EReal) :
    Ideal.div (Ideal.ofBits .f32 0x3F800000#32) (Ideal.ofBits .f32 0x3F800000#32 + Ideal.exp (-a)) = Ideal.logistic a := by
  rw [one_f32]; rfl

end Cert.ConvSilu

end
-- ==== Proof.Payload.lean ====
/-
  The kernel body's arithmetic at one entry.  Inside one time tile the body lays the three carried rows on top of the
  tile's 1024 rows (1027 rows in all), takes the four windows of 1024 consecutive rows starting at rows 0, 1, 2, 3,
  multiplies window k by the filter's row k spread over the rows, adds the four products from the left, and applies
  a · 1/(1 + e^(-a)).  Read at row l and channel d this is

      a = ((w(0,0,d)·e(l) + w(1,0,d)·e(l+1)) + w(2,0,d)·e(l+2)) + w(3,0,d)·e(l+3),     result = a · logistic a,

  where e(j) is carried row j for j < 3 and the tile's row j - 3 otherwise.  The rows carried out are the tile's
  rows 1021, 1022, 1023, and the rows a first tile starts from are zero.
-/
import proofs.«125260_j5016521802520_1_alg».proof.Proof.Gen.KernelIdeal.Skeleton
import proofs.«125260_j5016521802520_1_alg».proof.Proof.Spec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

section Layout
variable {α : Type}

/-- Row `j` of the carried rows laid on top of the tile: carried row `j` for `j < 3`, the tile's row `j - 3` for
    `3 ≤ j < 1027` (past that nothing reads it; a fixed entry stands there). -/
def stacked (xb : S1x1024x2048.Idx → α) (cr : S3x2048.Idx → α) (j : ℕ) (d : Fin 2048) : α :=
  if h : j < 3 then cr (ix2 ⟨j, h⟩ d)
  else if h' : j - 3 < 1024 then xb (ix3 0 ⟨j - 3, h'⟩ d) else cr (ix2 0 d)

theorem stacked_of_lt (xb : S1x1024x2048.Idx → α) (cr : S3x2048.Idx → α) (j : Fin 3) (d : Fin 2048) :
    stacked xb cr j.val d = cr (ix2 j d) := by
  unfold stacked; rw [dif_pos j.isLt]

theorem stacked_of_ge (xb : S1x1024x2048.Idx → α) (cr : S3x2048.Idx → α) (j : ℕ) (r : Fin 1024) (hr : r.val + 3 = j) (d : Fin 2048) :
    stacked xb cr j d = xb (ix3 0 r d) := by
  unfold stacked
  rw [dif_neg (by omega), dif_pos (by have := r.isLt; omega)]
  exact congrArg (fun q => xb (ix3 0 q d)) (Fin.ext (by show j - 3 = r.val; omega))

/-- The filter's row `k`, cut out, flattened, and spread over the tile's rows, read at row `l`, channel `d`. -/
theorem tap_apply (w : S4x1x2048.Idx → α) (k : Fin 4) (off : Fin 3 → Nat) (hoff : off = ![k.val, 0, 0])
    (hs : S4x1x2048.Slices off S1x1x2048) (h1 : S1x1x2048.ShapeCasts S2048) (h2 : S2048.ShapeCasts S1x2048)
    (h3 : S1x2048.Broadcasts S1024x2048) (l : Fin 1024) (d : Fin 2048) :
    broadcastTo S1024x2048 (shapeCast S1x2048 (shapeCast S2048 (extractStridedSlice S1x1x2048 off w hs) h1) h2) h3 (ix2 l d)
      = w (ix3 k 0 d) := by
  subst hoff
  rw [broadcastTo_apply _ h3 (ix2 l d) (ix2 0 d) (fun a => match a with
      | ⟨0, _⟩ => by show 0 = if (1 : Nat) = 1 then 0 else _; rw [if_pos rfl]
      | ⟨1, _⟩ => by show d.val = if (2048 : Nat) = 1 then 0 else d.val; rw [if_neg (by decide)]),
    shapeCast_apply _ h2 (ix2 0 d) (ix1 d) (by
      rw [Shape.rowMajor_val_one, Shape.rowMajor_val_two]; show d.val = 0 * 2048 + d.val; omega),
    shapeCast_apply _ h1 (ix1 d) (ix3 0 0 d) (by
      rw [Shape.rowMajor_val_three, Shape.rowMajor_val_one]; show (0 * 1 + 0) * 2048 + d.val = d.val; omega),
    extractStridedSlice_apply _ w hs (ix3 0 0 d) (ix3 k 0 d) (fun a => match a with
      | ⟨0, _⟩ => by show k.val = k.val + 0; omega
      | ⟨1, _⟩ => by show 0 = 0 + 0; rfl
      | ⟨2, _⟩ => by show d.val = 0 + d.val; omega)]

/-- The window of 1024 stacked rows starting at row `kk`, read at row `l`, channel `d`: stacked row `l + kk`. -/
theorem window_apply (xb : S1x1024x2048.Idx → α) (cr : S3x2048.Idx → α) (kk : ℕ) (hkk : kk ≤ 3) (off : Fin 2 → Nat)
    (hoff : off = ![kk, 0]) (hs : S1027x2048.Slices off S1024x2048)
    (hc : Shape.Concatenates [S3x2048, S1024x2048] S1027x2048 0) (h5 : S1x1024x2048.ShapeCasts S1024x2048)
    (l : Fin 1024) (d : Fin 2048) :
    extractStridedSlice S1024x2048 off
        (concatenate S1027x2048 0 [⟨S3x2048, cr⟩, ⟨S1024x2048, shapeCast S1024x2048 xb h5⟩] hc) hs (ix2 l d)
      = stacked xb cr (l.val + kk) d := by
  subst hoff
  have hl := l.isLt
  rw [extractStridedSlice_apply _ _ hs (ix2 l d) (ix2 (⟨l.val + kk, by omega⟩ : Fin 1027) d) (fun a => match a with
      | ⟨0, _⟩ => by show l.val + kk = kk + l.val; omega
      | ⟨1, _⟩ => by show d.val = 0 + d.val; omega)]
  by_cases h : l.val + kk < 3
  · rw [show stacked xb cr (l.val + kk) d = cr (ix2 ⟨l.val + kk, h⟩ d) from stacked_of_lt xb cr ⟨l.val + kk, h⟩ d]
    exact concatenate_pair_apply_left 0 cr _ hc _ rfl (ix2 ⟨l.val + kk, h⟩ d) (fun b => match b with
      | ⟨0, _⟩ => rfl
      | ⟨1, _⟩ => rfl)
  · rw [stacked_of_ge xb cr (l.val + kk) ⟨l.val + kk - 3, by omega⟩ (by show l.val + kk - 3 + 3 = l.val + kk; omega) d]
    rw [concatenate_pair_apply_right 0 cr _ hc _ rfl rfl (ix2 (⟨l.val + kk - 3, by omega⟩ : Fin 1024) d) (fun b hb => match b, hb with
      | ⟨0, _⟩, hb => absurd rfl hb
      | ⟨1, _⟩, _ => rfl) (by show l.val + kk - 3 + 3 = l.val + kk; omega)]
    exact shapeCast_apply xb h5 _ (ix3 0 ⟨l.val + kk - 3, by omega⟩ d) (by
      rw [Shape.rowMajor_val_three, Shape.rowMajor_val_two]
      show (0 * 1024 + (l.val + kk - 3)) * 2048 + d.val = (l.val + kk - 3) * 2048 + d.val; omega)

end Layout

/-- The output tile at row `l`, channel `d`, at the ideal instance. -/
theorem tile_apply (w : Vec Ideal S4x1x2048 .f32) (xb : Vec Ideal S1x1024x2048 .f32) (cr : Vec Ideal S3x2048 .f32)
    (u : Fin 1) (l : Fin 1024) (d : Fin 2048) :
    k0_pay4 (F := Ideal) w xb cr (ix3 u l d) =
      ConvSilu.silu (w (ix3 0 0 d) * stacked xb cr (l.val + 0) d + w (ix3 1 0 d) * stacked xb cr (l.val + 1) d
        + w (ix3 2 0 d) * stacked xb cr (l.val + 2) d + w (ix3 3 0 d) * stacked xb cr (l.val + 3) d) := by
  unfold k0_pay4 k0_pay3
  refine (shapeCast_apply _ shapeCasts_S1024x2048_S1x1024x2048 (ix3 u l d) (ix2 l d) (by
    rw [Shape.rowMajor_val_two, Shape.rowMajor_val_three]
    show l.val * 2048 + d.val = (u.val * 1024 + l.val) * 2048 + d.val
    have := u.isLt; omega)).trans ?_
  refine congrArg ConvSilu.silu ?_
  refine congrArg₂ (· + ·) (congrArg₂ (· + ·) (congrArg₂ (· + ·) ?_ ?_) ?_) ?_
  · exact congrArg₂ (· * ·) (tap_apply w 0 _ rfl _ _ _ _ l d) (window_apply xb cr 0 (by omega) _ rfl _ _ _ l d)
  · exact congrArg₂ (· * ·) (tap_apply w 1 _ rfl _ _ _ _ l d) (window_apply xb cr 1 (by omega) _ rfl _ _ _ l d)
  · exact congrArg₂ (· * ·) (tap_apply w 2 _ rfl _ _ _ _ l d) (window_apply xb cr 2 (by omega) _ rfl _ _ _ l d)
  · exact congrArg₂ (· * ·) (tap_apply w 3 _ rfl _ _ _ _ l d) (window_apply xb cr 3 (by omega) _ rfl _ _ _ l d)

variable {F : FTy → Type} [FloatOps F]

/-- The rows carried out of a tile: its rows 1021, 1022, 1023. -/
theorem carried_apply (xb : Vec F S1x1024x2048 .f32) (j : Fin 3) (d : Fin 2048) :
    k0_pay1 (k0_pay5 xb) (ix2 j d) = xb (ix3 0 ⟨1021 + j.val, by have := j.isLt; omega⟩ d) := by
  unfold k0_pay1 k0_pay5 k0_pay3
  refine (congrFun (shapeCast_self _ shapeCasts_S3x2048_S3x2048) (ix2 j d)).trans ?_
  refine (extractStridedSlice_apply _ _ slices_S1024x2048_o1021_0_S3x2048 (ix2 j d)
    (ix2 (⟨1021 + j.val, by have := j.isLt; omega⟩ : Fin 1024) d) (fun a => match a with
      | ⟨0, _⟩ => by show 1021 + j.val = 1021 + j.val; rfl
      | ⟨1, _⟩ => by show d.val = 0 + d.val; omega)).trans ?_
  exact shapeCast_apply xb shapeCasts_S1x1024x2048_S1024x2048 _ (ix3 0 ⟨1021 + j.val, by have := j.isLt; omega⟩ d) (by
    rw [Shape.rowMajor_val_three, Shape.rowMajor_val_two]
    show (0 * 1024 + (1021 + j.val)) * 2048 + d.val = (1021 + j.val) * 2048 + d.val; omega)

/-- The rows a first tile starts from are zero. -/
theorem zeros_apply (i : S3x2048.Idx) : k0_pay2 (F := Ideal) i = 0 := by
  unfold k0_pay2
  refine (congrFun (shapeCast_self _ shapeCasts_S3x2048_S3x2048) i).trans ?_
  exact Ideal.ofBits_zero_f32

end Cert.KernelIdeal.Body

end
-- ==== Proof.Tiles.lean ====
/-
  From the tiles to the whole array.  The grid has 32 points: point t works on batch row t / 4 and time tile t % 4,
  rows 1024·(t % 4) … 1024·(t % 4) + 1023 of that batch row, points in order, so the four tiles of one batch row follow
  one another.  Write P for the input padded with three zero rows in front of the time axis.

  * The input tile at point t, row l, is the input's row 1024·(t % 4) + l; the filter's window is the whole filter.
  * The rows carried out of point t are the tile's last three rows, whichever case ran.
  * Hence the rows the body finds carried in at point t, row j < 3, are P's row 1024·(t % 4) + j: zeros at a first
    tile (t % 4 = 0), and at a later tile the last three rows of the tile before, which is the same batch row's.
  * So the 1027 stacked rows at point t are P's rows 1024·(t % 4) … 1024·(t % 4) + 1026, and the output tile is the
    specification read on the tile's rows.
  * Every entry of the result array lies in exactly the tile of point 4·b + t / 1024, and every point writes back.
-/
import proofs.«125260_j5016521802520_1_alg».proof.Proof.Gen.KernelIdeal.Value
import proofs.«125260_j5016521802520_1_alg».proof.Proof.Pieces
import proofs.«125260_j5016521802520_1_alg».proof.Proof.Payload
import proofs.«125260_j5016521802520_1_alg».proof.Proof.Spec
import Idealize.ShloMosaic.Lib.Pipeline.Value
import Idealize.ShloMosaic.Lib.ValueIdx

noncomputable section

namespace Cert.KernelIdeal.Tiles

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The printed index maps, decided over the grid: point `t` is batch row `t / 4`, time tile `t % 4`, for the input and
    the output alike, and the filter's window never moves. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = t.val / 4 ∧ win0_2.index t (1 : Fin 3) = t.val % 4 ∧ win0_2.index t (2 : Fin 3) = 0 :=
  (by decide +kernel : ∀ t : Fin grid0.N, _)

/-- The input tile at point `t`, row `l`: the input's row `1024·(t % 4) + l` of batch row `t / 4`. -/
theorem xtile_apply (c : Dev nD) (t : Fin cfg0.N) (u : Fin 1) (l : Fin 1024) (d : Fin 2048) (b : Fin 8) (r : Fin 4096)
    (hb : b.val = t.val / 4) (hr : r.val = 1024 * (t.val % 4) + l.val) :
    iblk m c 0 t (ix3 u l d) = V m c main_arg0 (ix3 b r d) := by
  obtain ⟨e0, e1, e2, -⟩ := idx_facts t
  show V m c main_arg0 (((cfg0.win 0).blk t).view.emb (ix3 u l d)) = _
  refine congrArg (V m c main_arg0) (funext fun a => Fin.ext ?_)
  match a with
  | ⟨0, _⟩ => show win0_0.index t (0 : Fin 3) * 1 + 1 * u.val = b.val; have := u.isLt; omega
  | ⟨1, _⟩ => show win0_0.index t (1 : Fin 3) * 1024 + 1 * l.val = r.val; omega
  | ⟨2, _⟩ => show win0_0.index t (2 : Fin 3) * 2048 + 1 * d.val = d.val; omega

/-- The filter's window at any point is the filter. -/
theorem wtile_apply (c : Dev nD) (t : Fin cfg0.N) (k : Fin 4) (u : Fin 1) (d : Fin 2048) :
    iblk m c 1 t (ix3 k u d) = V m c main_arg1 (ix3 k u d) := by
  obtain ⟨-, -, -, e0, e1, e2, -⟩ := idx_facts t
  show V m c main_arg1 (((cfg0.win 1).blk t).view.emb (ix3 k u d)) = _
  refine congrArg (V m c main_arg1) (funext fun a => Fin.ext ?_)
  match a with
  | ⟨0, _⟩ => show win0_1.index t (0 : Fin 3) * 4 + 1 * k.val = k.val; omega
  | ⟨1, _⟩ => show win0_1.index t (1 : Fin 3) * 1 + 1 * u.val = u.val; omega
  | ⟨2, _⟩ => show win0_1.index t (2 : Fin 3) * 2048 + 1 * d.val = d.val; omega

/-- The rows carried out of point `t` are its input tile's rows 1021, 1022, 1023, whichever case ran. -/
theorem carried_out (c : Dev nD) (t : Fin cfg0.N) (j : Fin 3) (d : Fin 2048) :
    (outsAt0 m c t.val t.isLt).2 (ix2 j d) = iblk m c 0 t (ix3 0 ⟨1021 + j.val, by have := j.isLt; omega⟩ d) := by
  by_cases h0 : t.val % 4 = 0
  · rw [outsAt0_A m c t h0]
    dsimp only
    exact (congrFun (Found.carry_first (F := Ideal) c (grid0.coords t) (ms0_0 t) (hs0_0 t) (ms0_1 t) (hs0_1 t) (ms0_2 t) (hs0_2 t) scM0_0 (Memref.isWhole_whole _) ((hcond0_0 t).mpr h0) (iblk m c 0 t) (iblk m c 1 t)) (ix2 j d)).trans
      (Body.carried_apply (F := Ideal) (iblk m c 0 t) j d)
  · rw [outsAt0_B m c t h0]
    dsimp only
    exact (congrFun (Found.carry_later (F := Ideal) c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t)
      (outsAt0 m c (t.val - 1) (Nat.lt_of_le_of_lt (Nat.sub_le _ _) t.isLt)).2) (ix2 j d)).trans
      (Body.carried_apply (F := Ideal) (iblk m c 0 t) j d)

/-- The 1027 stacked rows at point `t` are the padded input's rows from `1024·(t % 4)` on, once the carried rows are. -/
theorem stacked_eq (c : Dev nD) (t : Fin cfg0.N) (cr : Vec Ideal S3x2048 .f32) (b : Fin 8) (hb : b.val = t.val / 4)
    (hcr : ∀ (j : Fin 3) (d : Fin 2048), cr (ix2 j d) = ConvSilu.padded (V m c main_arg0) b (1024 * (t.val % 4) + j.val) d)
    (j : ℕ) (hj : j < 1027) (d : Fin 2048) :
    Body.stacked (iblk m c 0 t) cr j d = ConvSilu.padded (V m c main_arg0) b (1024 * (t.val % 4) + j) d := by
  by_cases h : j < 3
  · exact (Body.stacked_of_lt (iblk m c 0 t) cr ⟨j, h⟩ d).trans (hcr ⟨j, h⟩ d)
  · have ht : t.val % 4 < 4 := Nat.mod_lt _ (by decide)
    rw [Body.stacked_of_ge (iblk m c 0 t) cr j ⟨j - 3, by omega⟩ (by show j - 3 + 3 = j; omega) d,
      ConvSilu.padded_of_ge (V m c main_arg0) b (1024 * (t.val % 4) + j) d ⟨1024 * (t.val % 4) + (j - 3), by omega⟩
        (by show 1024 * (t.val % 4) + (j - 3) + 3 = 1024 * (t.val % 4) + j; omega)]
    exact xtile_apply m c t 0 ⟨j - 3, by omega⟩ d b ⟨1024 * (t.val % 4) + (j - 3), by omega⟩ hb rfl

/-- The rows the body finds carried in at point `t` are the padded input's rows `1024·(t % 4) + j`, `j < 3`: zeros at
    a first tile, the last rows of the tile before at a later one. -/
theorem carried_in_first (c : Dev nD) (t : Fin cfg0.N) (h0 : t.val % 4 = 0) (b : Fin 8) (j : Fin 3) (d : Fin 2048) :
    k0_pay2 (F := Ideal) (ix2 j d) = ConvSilu.padded (V m c main_arg0) b (1024 * (t.val % 4) + j.val) d := by
  rw [Body.zeros_apply, ConvSilu.padded_of_lt _ b _ d (by have := j.isLt; omega)]

theorem carried_in_later (c : Dev nD) (t : Fin cfg0.N) (h0 : ¬t.val % 4 = 0) (b : Fin 8) (hb : b.val = t.val / 4)
    (j : Fin 3) (d : Fin 2048) :
    (outsAt0 m c (t.val - 1) (Nat.lt_of_le_of_lt (Nat.sub_le _ _) t.isLt)).2 (ix2 j d)
      = ConvSilu.padded (V m c main_arg0) b (1024 * (t.val % 4) + j.val) d := by
  have hj := j.isLt
  have ht : t.val % 4 < 4 := Nat.mod_lt _ (by decide)
  have hN : t.val < 32 := lt_of_lt_of_eq t.isLt (show cfg0.N = 32 from N_0)
  rw [ConvSilu.padded_of_ge (V m c main_arg0) b (1024 * (t.val % 4) + j.val) d ⟨1024 * (t.val % 4) + j.val - 3, by omega⟩
    (by show 1024 * (t.val % 4) + j.val - 3 + 3 = 1024 * (t.val % 4) + j.val; omega)]
  refine (carried_out m c ⟨t.val - 1, Nat.lt_of_le_of_lt (Nat.sub_le _ _) t.isLt⟩ j d).trans ?_
  exact xtile_apply m c ⟨t.val - 1, Nat.lt_of_le_of_lt (Nat.sub_le _ _) t.isLt⟩ 0 ⟨1021 + j.val, by omega⟩ d b
    ⟨1024 * (t.val % 4) + j.val - 3, by omega⟩ (by show b.val = (t.val - 1) / 4; omega)
    (by show 1024 * (t.val % 4) + j.val - 3 = 1024 * ((t.val - 1) % 4) + (1021 + j.val); omega)

/-- The body's arithmetic over stacked rows that are padded rows is the specification on the tile's row. -/
theorem tile_eq (c : Dev nD) (t : Fin cfg0.N) (cr : Vec Ideal S3x2048 .f32) (b : Fin 8) (hb : b.val = t.val / 4)
    (hcr : ∀ (j : Fin 3) (d : Fin 2048), cr (ix2 j d) = ConvSilu.padded (V m c main_arg0) b (1024 * (t.val % 4) + j.val) d)
    (u : Fin 1) (l : Fin 1024) (d : Fin 2048) (r : Fin 4096) (hr : r.val = 1024 * (t.val % 4) + l.val) :
    k0_pay4 (F := Ideal) (iblk m c 1 t) (iblk m c 0 t) cr (ix3 u l d)
      = ConvSilu.result (V m c main_arg0) (V m c main_arg1) (ix3 b r d) := by
  have hl := l.isLt
  rw [Body.tile_apply, ConvSilu.result_apply]
  refine congrArg ConvSilu.silu ?_
  unfold ConvSilu.conv
  rw [wtile_apply m c t 0 0 d, wtile_apply m c t 1 0 d, wtile_apply m c t 2 0 d, wtile_apply m c t 3 0 d,
    stacked_eq m c t cr b hb hcr (l.val + 0) (by omega) d, stacked_eq m c t cr b hb hcr (l.val + 1) (by omega) d,
    stacked_eq m c t cr b hb hcr (l.val + 2) (by omega) d, stacked_eq m c t cr b hb hcr (l.val + 3) (by omega) d, hr]
  rfl

/-- What point `t` leaves in the output's staging buffer: the specification on the tile's rows. -/
theorem otile_apply (c : Dev nD) (t : Fin cfg0.N) (u : Fin 1) (l : Fin 1024) (d : Fin 2048) (b : Fin 8) (r : Fin 4096)
    (hb : b.val = t.val / 4) (hr : r.val = 1024 * (t.val % 4) + l.val) :
    (outsAt0 m c t.val t.isLt).1 (ix3 u l d) = ConvSilu.result (V m c main_arg0) (V m c main_arg1) (ix3 b r d) := by
  by_cases h0 : t.val % 4 = 0
  · rw [outsAt0_A m c t h0]
    dsimp only
    exact (congrFun (Found.out_first (F := Ideal) c (grid0.coords t) (ms0_0 t) (hs0_0 t) (ms0_1 t) (hs0_1 t) (ms0_2 t) (hs0_2 t) scM0_0 (Memref.isWhole_whole _) ((hcond0_0 t).mpr h0) (iblk m c 0 t) (iblk m c 1 t)) (ix3 u l d)).trans
      (tile_eq m c t (k0_pay2 (F := Ideal)) b hb (carried_in_first m c t h0 b) u l d r hr)
  · rw [outsAt0_B m c t h0]
    dsimp only
    exact (congrFun (Found.out_later (F := Ideal) c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t)
      (outsAt0 m c (t.val - 1) (Nat.lt_of_le_of_lt (Nat.sub_le _ _) t.isLt)).2) (ix3 u l d)).trans
      (tile_eq m c t _ b hb (carried_in_later m c t h0 b hb) u l d r hr)

/-- WHAT POINT `t` WRITES BACK is block `t` of the specification of the argument arrays. -/
theorem flushed_eq (c : Dev nD) (t : Fin cfg0.N) :
    (dats m 0 c).flushed 2 t
      = ((cfg0.win 2).blk t).view.read (Elt Ideal) (ConvSilu.result (V m c main_arg0) (V m c main_arg1)) := by
  rw [Value.flushed2]
  obtain ⟨-, -, -, -, -, -, e0, e1, e2⟩ := idx_facts t
  have hN : t.val < 32 := lt_of_lt_of_eq t.isLt (show cfg0.N = 32 from N_0)
  funext j
  obtain ⟨u, l, d, rfl⟩ : ∃ (u : Fin 1) (l : Fin 1024) (d : Fin 2048), j = ix3 u l d := ⟨j 0, j 1, j 2, eq_ix3 j⟩
  have hl := l.isLt
  show (outsAt0 m c t.val t.isLt).1 (ix3 u l d)
    = ConvSilu.result (V m c main_arg0) (V m c main_arg1) (((cfg0.win 2).blk t).view.emb (ix3 u l d))
  rw [otile_apply m c t u l d ⟨t.val / 4, by omega⟩ ⟨1024 * (t.val % 4) + l.val, by omega⟩ rfl rfl]
  refine congrArg (ConvSilu.result (V m c main_arg0) (V m c main_arg1)) (funext fun a => Fin.ext ?_)
  match a with
  | ⟨0, _⟩ => show t.val / 4 = win0_2.index t (0 : Fin 3) * 1 + 1 * u.val; have := u.isLt; omega
  | ⟨1, _⟩ => show 1024 * (t.val % 4) + l.val = win0_2.index t (1 : Fin 3) * 1024 + 1 * l.val; omega
  | ⟨2, _⟩ => show d.val = win0_2.index t (2 : Fin 3) * 2048 + 1 * d.val; omega

/-- An index of the array is in point `t`'s block iff each coordinate is in the block's range on its axis. -/
theorem mem_blk (t : Fin cfg0.N) (i : S8x4096x2048.Idx) :
    i ∈ ((cfg0.win 2).blk t).view.set ↔ ∀ a : Fin 3, win0_2.index t a * S1x1024x2048.size a ≤ (i a).val
      ∧ (i a).val < win0_2.index t a * S1x1024x2048.size a + S1x1024x2048.size a := by
  show i ∈ ((View.whole main_v0).slice (win0_2.rect t)).set ↔ _
  rw [View.set_slice_whole, Rect.mem_set_unit]
  exact Iff.rfl

/-- THE ARRAY after the run is the specification of the argument arrays: the 32 tiles cover it. -/
theorem final (c : Dev nD) :
    (dats m 0 c).arrAt 2 cfg0.N = ConvSilu.result (V m c main_arg0) (V m c main_arg1) :=
  (dats m 0 c).arrAt_eq_of_cover 2 _ (fun t _ => flushed_eq m c t) fun i => by
    have h0 : (i 0).val < 8 := (i 0).isLt
    have h1 : (i 1).val < 4096 := (i 1).isLt
    have h2 : (i 2).val < 2048 := (i 2).isLt
    have hN : grid0.N = 32 := N_0
    have hlt : 4 * (i 0).val + (i 1).val / 1024 < cfg0.N := by show _ < grid0.N; omega
    refine ⟨⟨4 * (i 0).val + (i 1).val / 1024, hlt⟩, flush0_2 _, ?_⟩
    obtain ⟨-, -, -, -, -, -, e0, e1, e2⟩ := idx_facts ⟨4 * (i 0).val + (i 1).val / 1024, hlt⟩
    have e0' : win0_2.index ⟨4 * (i 0).val + (i 1).val / 1024, hlt⟩ (0 : Fin 3) = (4 * (i 0).val + (i 1).val / 1024) / 4 := e0
    have e1' : win0_2.index ⟨4 * (i 0).val + (i 1).val / 1024, hlt⟩ (1 : Fin 3) = (4 * (i 0).val + (i 1).val / 1024) % 4 := e1
    rw [mem_blk]
    intro a
    match a with
    | ⟨0, _⟩ => show win0_2.index _ (0 : Fin 3) * 1 ≤ (i 0).val ∧ (i 0).val < win0_2.index _ (0 : Fin 3) * 1 + 1; omega
    | ⟨1, _⟩ => show win0_2.index _ (1 : Fin 3) * 1024 ≤ (i 1).val ∧ (i 1).val < win0_2.index _ (1 : Fin 3) * 1024 + 1024; omega
    | ⟨2, _⟩ => show win0_2.index _ (2 : Fin 3) * 2048 ≤ (i 2).val ∧ (i 2).val < win0_2.index _ (2 : Fin 3) * 2048 + 2048; omega

/-- The kernel's run, read: the result array at the specification of the arguments, the arguments unchanged. -/
theorem run : θ_run defs (onTc (τ := τ) (main (F := Ideal))) ⟨m, fun _ => 0, ρ⟩ fun r => ∀ c : Dev nD,
      r.2.mem ((c : Thread nD τ).loc main_v0)
          = ConvSilu.result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Tiles

end
-- ==== Proof.RefRun.lean ====
/-
  The reference program's run, read back.  Its @main is a straight line of fifty-five host operations (the two
  functions it calls, the zero padding and x · 1/(1 + e^(-x)), stand at their call sites): the filter reshaped to
  [4, 2048]; the input padded with three rows of the converted integer 0 in front of the time axis; for each tap
  k = 0 … 3 the filter's row k spread over batch and time, times the block of 4096 padded rows starting at row k,
  added to the running sum, which starts at the zero array; then y · (1 / (1 + exp (- y))) of the sum y.
  Every weakly fair execution terminates with the result buffer at that composed term of the arguments, the
  arguments unchanged.
-/
import proofs.«125260_j5016521802520_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, a called function's operations in its call's place. -/
abbrev ops : List (HloOp τ sig (Elt F)) :=
  [
    reshape main_arg1 main_v0 rfl shapeCasts_S4x1x2048_S4x2048,
    nullary main_c (constantI S_ 32 0#32),
    TRef.unary (TRef.of (T := ⟨S_, .i32⟩) main_c) main_call0.v0 (sitofp .f32),
    TRef.binary (TRef.of (T := ⟨S8x4096x2048, .f32⟩) main_arg0) main_call0.v0 main_call0.v1 (fun x v => pad S8x4099x2048 ![0, 3, 0] ![0, 0, 0] ![0, 0, 0] x v pads_S8x4096x2048_S8x4099x2048_000_300_000 h_S_),
    nullary main_cst (constant S_ .f32 0x00000000#32),
    unary main_cst main_v2 (broadcastInDim S8x4096x2048 ![] bcast_S_S8x4096x2048 : (⟨S_, .f32⟩ : BufTy).Contents (Elt F) → (⟨S8x4096x2048, .f32⟩ : BufTy).Contents (Elt F)),
    unary main_v0 main_v3 ((extractStridedSlice S1x2048 ![0, 0] · slices_S4x2048_S1x2048_0_0) : (⟨S4x2048, .f32⟩ : BufTy).Contents (Elt F) → (⟨S1x2048, .f32⟩ : BufTy).Contents (Elt F)),
    reshape main_v3 main_v4 rfl shapeCasts_S1x2048_S2048,
    nullary main_c_0 (constantI S_ 32 0#32),
    nullary main_c_1 (constantI S_ 32 0#32),
    nullary main_c_2 (constantI S_ 32 0#32),
    unaryIndexed main_v1 ![main_c_0, main_c_1, main_c_2] ⟨S_, .i32⟩ main_v5 ((fun x i => Host.dynamicSlice S8x4096x2048 x (fun k => (i k (Shape.Idx.first h_S_)).toInt) sliceFits_S8x4099x2048_S8x4096x2048) : (⟨S8x4099x2048, .f32⟩ : BufTy).Contents (Elt F) → (Fin 3 → (⟨S_, .i32⟩ : BufTy).Contents (Elt F)) → (⟨S8x4096x2048, .f32⟩ : BufTy).Contents (Elt F)),
    unary main_v4 main_v6 (broadcastInDim S1x1x2048 ![2] bcast_S2048_S1x1x2048_2 : (⟨S2048, .f32⟩ : BufTy).Contents (Elt F) → (⟨S1x1x2048, .f32⟩ : BufTy).Contents (Elt F)),
    unary main_v6 main_v7 (broadcastInDim S8x4096x2048 ![0, 1, 2] bcast_S1x1x2048_S8x4096x2048_0_1_2 : (⟨S1x1x2048, .f32⟩ : BufTy).Contents (Elt F) → (⟨S8x4096x2048, .f32⟩ : BufTy).Contents (Elt F)),
    binary main_v7 main_v5 main_v8 (mulf : (⟨S8x4096x2048, .f32⟩ : BufTy).Contents (Elt F) → (⟨S8x4096x2048, .f32⟩ : BufTy).Contents (Elt F) → (⟨S8x4096x2048, .f32⟩ : BufTy).Contents (Elt F)),
    binary main_v2 main_v8 main_v9 (addf : (⟨S8x4096x2048, .f32⟩ : BufTy).Contents (Elt F) → (⟨S8x4096x2048, .f32⟩ : BufTy).Contents (Elt F) → (⟨S8x4096x2048, .f32⟩ : BufTy).Contents (Elt F)),
    unary main_v0 main_v10 ((extractStridedSlice S1x2048 ![1, 0] · slices_S4x2048_S1x2048_1_0) : (⟨S4x2048, .f32⟩ : BufTy).Contents (Elt F) → (⟨S1x2048, .f32⟩ : BufTy).Contents (Elt F)),
    reshape main_v10 main_v11 rfl shapeCasts_S1x2048_S2048,
    nullary main_c_3 (constantI S_ 32 0#32),
    nullary main_c_4 (constantI S_ 32 1#32),
    nullary main_c_5 (constantI S_ 32 0#32),
    unaryIndexed main_v1 ![main_c_3, main_c_4, main_c_5] ⟨S_, .i32⟩ main_v12 ((fun x i => Host.dynamicSlice S8x4096x2048 x (fun k => (i k (Shape.Idx.first h_S_)).toInt) sliceFits_S8x4099x2048_S8x4096x2048) : (⟨S8x4099x2048, .f32⟩ : BufTy).Contents (Elt F) → (Fin 3 → (⟨S_, .i32⟩ : BufTy).Contents (Elt F)) → (⟨S8x4096x2048, .f32⟩ : BufTy).Contents (Elt F)),
    unary main_v11 main_v13 (broadcastInDim S1x1x2048 ![2] bcast_S2048_S1x1x2048_2 : (⟨S2048, .f32⟩ : BufTy).Contents (Elt F) → (⟨S1x1x2048, .f32⟩ : BufTy).Contents (Elt F)),
    unary main_v13 main_v14 (broadcastInDim S8x4096x2048 ![0, 1, 2] bcast_S1x1x2048_S8x4096x2048_0_1_2 : (⟨S1x1x2048, .f32⟩ : BufTy).Contents (Elt F) → (⟨S8x4096x2048, .f32⟩ : BufTy).Contents (Elt F)),
    binary main_v14 main_v12 main_v15 (mulf : (⟨S8x4096x2048, .f32⟩ : BufTy).Contents (Elt F) → (⟨S8x4096x2048, .f32⟩ : BufTy).Contents (Elt F) → (⟨S8x4096x2048, .f32⟩ : BufTy).Contents (Elt F)),
    binary main_v9 main_v15 main_v16 (addf : (⟨S8x4096x2048, .f32⟩ : BufTy).Contents (Elt F) → (⟨S8x4096x2048, .f32⟩ : BufTy).Contents (Elt F) → (⟨S8x4096x2048, .f32⟩ : BufTy).Contents (Elt F)),
    unary main_v0 main_v17 ((extractStridedSlice S1x2048 ![2, 0] · slices_S4x2048_S1x2048_2_0) : (⟨S4x2048, .f32⟩ : BufTy).Contents (Elt F) → (⟨S1x2048, .f32⟩ : BufTy).Contents (Elt F)),
    reshape main_v17 main_v18 rfl shapeCasts_S1x2048_S2048,
    nullary main_c_6 (constantI S_ 32 0#32),
    nullary main_c_7 (constantI S_ 32 2#32),
    nullary main_c_8 (constantI S_ 32 0#32),
    unaryIndexed main_v1 ![main_c_6, main_c_7, main_c_8] ⟨S_, .i32⟩ main_v19 ((fun x i => Host.dynamicSlice S8x4096x2048 x (fun k => (i k (Shape.Idx.first h_S_)).toInt) sliceFits_S8x4099x2048_S8x4096x2048) : (⟨S8x4099x2048, .f32⟩ : BufTy).Contents (Elt F) → (Fin 3 → (⟨S_, .i32⟩ : BufTy).Contents (Elt F)) → (⟨S8x4096x2048, .f32⟩ : BufTy).Contents (Elt F)),
    unary main_v18 main_v20 (broadcastInDim S1x1x2048 ![2] bcast_S2048_S1x1x2048_2 : (⟨S2048, .f32⟩ : BufTy).Contents (Elt F) → (⟨S1x1x2048, .f32⟩ : BufTy).Contents (Elt F)),
    unary main_v20 main_v21 (broadcastInDim S8x4096x2048 ![0, 1, 2] bcast_S1x1x2048_S8x4096x2048_0_1_2 : (⟨S1x1x2048, .f32⟩ : BufTy).Contents (Elt F) → (⟨S8x4096x2048, .f32⟩ : BufTy).Contents (Elt F)),
    binary main_v21 main_v19 main_v22 (mulf : (⟨S8x4096x2048, .f32⟩ : BufTy).Contents (Elt F) → (⟨S8x4096x2048, .f32⟩ : BufTy).Contents (Elt F) → (⟨S8x4096x2048, .f32⟩ : BufTy).Contents (Elt F)),
    binary main_v16 main_v22 main_v23 (addf : (⟨S8x4096x2048, .f32⟩ : BufTy).Contents (Elt F) → (⟨S8x4096x2048, .f32⟩ : BufTy).Contents (Elt F) → (⟨S8x4096x2048, .f32⟩ : BufTy).Contents (Elt F)),
    unary main_v0 main_v24 ((extractStridedSlice S1x2048 ![3, 0] · slices_S4x2048_S1x2048_3_0) : (⟨S4x2048, .f32⟩ : BufTy).Contents (Elt F) → (⟨S1x2048, .f32⟩ : BufTy).Contents (Elt F)),
    reshape main_v24 main_v25 rfl shapeCasts_S1x2048_S2048,
    nullary main_c_9 (constantI S_ 32 0#32),
    nullary main_c_10 (constantI S_ 32 3#32),
    nullary main_c_11 (constantI S_ 32 0#32),
    unaryIndexed main_v1 ![main_c_9, main_c_10, main_c_11] ⟨S_, .i32⟩ main_v26 ((fun x i => Host.dynamicSlice S8x4096x2048 x (fun k => (i k (Shape.Idx.first h_S_)).toInt) sliceFits_S8x4099x2048_S8x4096x2048) : (⟨S8x4099x2048, .f32⟩ : BufTy).Contents (Elt F) → (Fin 3 → (⟨S_, .i32⟩ : BufTy).Contents (Elt F)) → (⟨S8x4096x2048, .f32⟩ : BufTy).Contents (Elt F)),
    unary main_v25 main_v27 (broadcastInDim S1x1x2048 ![2] bcast_S2048_S1x1x2048_2 : (⟨S2048, .f32⟩ : BufTy).Contents (Elt F) → (⟨S1x1x2048, .f32⟩ : BufTy).Contents (Elt F)),
    unary main_v27 main_v28 (broadcastInDim S8x4096x2048 ![0, 1, 2] bcast_S1x1x2048_S8x4096x2048_0_1_2 : (⟨S1x1x2048, .f32⟩ : BufTy).Contents (Elt F) → (⟨S8x4096x2048, .f32⟩ : BufTy).Contents (Elt F)),
    binary main_v28 main_v26 main_v29 (mulf : (⟨S8x4096x2048, .f32⟩ : BufTy).Contents (Elt F) → (⟨S8x4096x2048, .f32⟩ : BufTy).Contents (Elt F) → (⟨S8x4096x2048, .f32⟩ : BufTy).Contents (Elt F)),
    binary main_v23 main_v29 main_v30 (addf : (⟨S8x4096x2048, .f32⟩ : BufTy).Contents (Elt F) → (⟨S8x4096x2048, .f32⟩ : BufTy).Contents (Elt F) → (⟨S8x4096x2048, .f32⟩ : BufTy).Contents (Elt F)),
    TRef.unary (TRef.of (T := ⟨S8x4096x2048, .f32⟩) main_v30) main_call1.v0 Host.negf,
    TRef.unary main_call1.v0 main_call1.v1 Host.exp,
    TRef.nullary main_call1.cst (constant S_ .f32 0x3F800000#32),
    TRef.unary main_call1.cst main_call1.v2 (broadcastInDim S8x4096x2048 ![] bcast_S_S8x4096x2048),
    TRef.binary main_call1.v2 main_call1.v1 main_call1.v3 addf,
    TRef.nullary main_call1.cst_0 (constant S_ .f32 0x3F800000#32),
    TRef.unary main_call1.cst_0 main_call1.v4 (broadcastInDim S8x4096x2048 ![] bcast_S_S8x4096x2048),
    TRef.binary main_call1.v4 main_call1.v3 main_call1.v5 Host.divf,
    TRef.binary (TRef.of (T := ⟨S8x4096x2048, .f32⟩) main_v30) main_call1.v5 main_call1.v6 mulf ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., nullary_bufs_sub .., unary_bufs_sub .., binary_bufs_sub .., nullary_bufs_sub .., unary_bufs_sub .., unary_bufs_sub .., reshape_bufs_sub .., nullary_bufs_sub .., nullary_bufs_sub .., nullary_bufs_sub .., unaryIndexed_bufs_sub .., unary_bufs_sub .., unary_bufs_sub .., binary_bufs_sub .., binary_bufs_sub .., unary_bufs_sub .., reshape_bufs_sub .., nullary_bufs_sub .., nullary_bufs_sub .., nullary_bufs_sub .., unaryIndexed_bufs_sub .., unary_bufs_sub .., unary_bufs_sub .., binary_bufs_sub .., binary_bufs_sub .., unary_bufs_sub .., reshape_bufs_sub .., nullary_bufs_sub .., nullary_bufs_sub .., nullary_bufs_sub .., unaryIndexed_bufs_sub .., unary_bufs_sub .., unary_bufs_sub .., binary_bufs_sub .., binary_bufs_sub .., unary_bufs_sub .., reshape_bufs_sub .., nullary_bufs_sub .., nullary_bufs_sub .., nullary_bufs_sub .., unaryIndexed_bufs_sub .., unary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩

/-! ## The composed term, in stages -/

/-- The filter as a [4, 2048] matrix. -/
def wRows (w : (⟨S4x1x2048, .f32⟩ : BufTy).Contents (Elt F)) : (⟨S4x2048, .f32⟩ : BufTy).Contents (Elt F) :=
  shapeCast _ w shapeCasts_S4x1x2048_S4x2048

/-- The input with three rows of the converted integer zero in front of the time axis. -/
def padX (x : (⟨S8x4096x2048, .f32⟩ : BufTy).Contents (Elt F)) : (⟨S8x4099x2048, .f32⟩ : BufTy).Contents (Elt F) :=
  pad S8x4099x2048 ![0, 3, 0] ![0, 0, 0] ![0, 0, 0] x (sitofp .f32 (constantI S_ 32 0#32) : (⟨S_, .f32⟩ : BufTy).Contents (Elt F))
    pads_S8x4096x2048_S8x4099x2048_000_300_000 h_S_

/-- One row of the filter (the slice at `off`), spread over batch and time. -/
def tapW (off : Fin 2 → Nat) (hs : S4x2048.Slices off S1x2048) (w : (⟨S4x1x2048, .f32⟩ : BufTy).Contents (Elt F)) :
    (⟨S8x4096x2048, .f32⟩ : BufTy).Contents (Elt F) :=
  broadcastInDim S8x4096x2048 ![0, 1, 2] bcast_S1x1x2048_S8x4096x2048_0_1_2
    (broadcastInDim S1x1x2048 ![2] bcast_S2048_S1x1x2048_2
      (shapeCast _ (extractStridedSlice S1x2048 off (wRows w) hs) shapeCasts_S1x2048_S2048))

/-- The 4096 padded rows starting at row `k`, the start given as three integer scalars. -/
def tapX (k : BitVec 32) (x : (⟨S8x4096x2048, .f32⟩ : BufTy).Contents (Elt F)) : (⟨S8x4096x2048, .f32⟩ : BufTy).Contents (Elt F) :=
  Host.dynamicSlice S8x4096x2048 (padX x)
    (fun a => ((![constantI S_ 32 0#32, constantI S_ 32 k, constantI S_ 32 0#32] : Fin 3 → (⟨S_, .i32⟩ : BufTy).Contents (Elt F)) a
      (Shape.Idx.first h_S_)).toInt) sliceFits_S8x4099x2048_S8x4096x2048

/-- The four-tap sum, added from the zero array tap by tap. -/
def convSum (x : (⟨S8x4096x2048, .f32⟩ : BufTy).Contents (Elt F)) (w : (⟨S4x1x2048, .f32⟩ : BufTy).Contents (Elt F)) :
    (⟨S8x4096x2048, .f32⟩ : BufTy).Contents (Elt F) :=
  addf (addf (addf (addf
    (broadcastInDim S8x4096x2048 ![] bcast_S_S8x4096x2048 (constant S_ .f32 0x00000000#32))
    (mulf (tapW ![0, 0] slices_S4x2048_S1x2048_0_0 w) (tapX 0#32 x)))
    (mulf (tapW ![1, 0] slices_S4x2048_S1x2048_1_0 w) (tapX 1#32 x)))
    (mulf (tapW ![2, 0] slices_S4x2048_S1x2048_2_0 w) (tapX 2#32 x)))
    (mulf (tapW ![3, 0] slices_S4x2048_S1x2048_3_0 w) (tapX 3#32 x))

/-- `y · (1 / (1 + exp (- y)))`, array-wise, the two ones the word of 1.0. -/
def siluOf (y : (⟨S8x4096x2048, .f32⟩ : BufTy).Contents (Elt F)) : (⟨S8x4096x2048, .f32⟩ : BufTy).Contents (Elt F) :=
  mulf y (Host.divf (broadcastInDim S8x4096x2048 ![] bcast_S_S8x4096x2048 (constant S_ .f32 0x3F800000#32))
    (addf (broadcastInDim S8x4096x2048 ![] bcast_S_S8x4096x2048 (constant S_ .f32 0x3F800000#32)) (Host.exp (Host.negf y))))

/-- The result buffer's term of the two arguments. -/
def out (x : (⟨S8x4096x2048, .f32⟩ : BufTy).Contents (Elt F)) (w : (⟨S4x1x2048, .f32⟩ : BufTy).Contents (Elt F)) :
    (⟨S8x4096x2048, .f32⟩ : BufTy).Contents (Elt F) :=
  siluOf (convSum x w)

/-! ## The fold at the buffers the claims read -/

/-- An operation with three index operands, at its result buffer: its function of the operand's contents and of the three
    index buffers' contents, listed (the general statement reads them through the vector of references). -/
theorem unaryIndexed3_result' {a y i0 i1 i2 : Ref sig .tc} (T : BufTy)
    (f : a.ty.Contents (Elt F) → (Fin 3 → T.Contents (Elt F)) → y.ty.Contents (Elt F)) (hT ha hix hy) (V : Valuation τ sig (Elt F)) :
    (unaryIndexed (τ := τ) a ![i0, i1, i2] T y f hT ha hix hy).result V (no_index (Proc.devRef .tc y))
      = f (V (Proc.devRef .tc a))
          ![cast (congrArg (fun U : BufTy => U.Contents (Elt F)) (hT 0)) (V (Proc.devRef .tc i0)),
            cast (congrArg (fun U : BufTy => U.Contents (Elt F)) (hT 1)) (V (Proc.devRef .tc i1)),
            cast (congrArg (fun U : BufTy => U.Contents (Elt F)) (hT 2)) (V (Proc.devRef .tc i2))] :=
  (unaryIndexed_result a ![i0, i1, i2] T y f hT ha hix hy V).trans
    (congrArg (f (V (Proc.devRef .tc a))) (funext fun k => by fin_cases k <;> rfl))

/-! ## The fold at the buffers the claims read -/

-- the layout operations stay folded while the fold is computed: the equation never looks inside them, and their bodies
-- range over arrays of production extents
attribute [local irreducible] pad Host.dynamicSlice extractStridedSlice shapeCast broadcastInDim in
set_option maxRecDepth 8192 in
set_option maxHeartbeats 1000000 in
/-- The fold at the result buffer is the composed term: each operation's result read at its own buffer, the others passed
    by, the typed references' transports the identity at literal references. -/
theorem out_eq (V : Valuation τ sig (Elt F)) :
    after ops V (Proc.devRef .tc main_v31) = out (V (Proc.devRef .tc main_arg0)) (V (Proc.devRef .tc main_arg1)) := by
  simp (disch := decide) only [after_cons, after_nil, nullary_result', unary_result', binary_result', reshape_result',
    unaryIndexed3_result', nullary_result_ne', unary_result_ne', binary_result_ne', reshape_result_ne', unaryIndexed_result_ne']
  rfl

set_option maxRecDepth 8192 in
/-- No operation writes the first argument. -/
theorem arg0_eq (V : Valuation τ sig (Elt F)) :
    after ops V (Proc.devRef .tc main_arg0) = V (Proc.devRef .tc main_arg0) := by
  simp only [after_cons, after_nil]
  rfl

set_option maxRecDepth 8192 in
/-- No operation writes the second argument. -/
theorem arg1_eq (V : Valuation τ sig (Elt F)) :
    after ops V (Proc.devRef .tc main_arg1) = V (Proc.devRef .tc main_arg1) := by
  simp only [after_cons, after_nil]
  rfl

/-! ## The run -/

/-- On every device, for any float values, from any memory with zero counters: every weakly fair execution of @main
    terminates with the result buffer at the composed term of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31)
          = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v31).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.HandRun

end
-- ==== Proof.RefValue.lean ====
/-
  The reference's composed term is the specification, entry by entry, over the extended reals.

  At batch b, time t, channel d: the filter's row k, cut out of the [4, 2048] matrix, flattened and spread over batch
  and time, reads w(k, 0, d); the block of 4096 padded rows starting at row k (its three start scalars 0, k, 0 are not
  negative and leave the block inside the padded array, so the clamp does nothing) reads padded row t + k, which is
  zero — the converted integer 0 — for t + k < 3 and the input's row t + k - 3 otherwise; the running sum starts at the
  word of +0.0, which denotes 0, and 0 + a = a on the extended reals; the two ones of the quotient are the word of 1.0.
-/
import proofs.«125260_j5016521802520_1_alg».proof.Proof.RefRun
import proofs.«125260_j5016521802520_1_alg».proof.Proof.Spec
import Idealize.ShloMosaic.Lib.Pipeline.Value
import Idealize.ShloMosaic.Lib.ValueIdx
import Idealize.ShloMosaic.Lib.KernelVsHost
import Idealize.ShloMosaic.Lib.DynamicIndex
import Idealize.ShloMosaic.PureOps.Ideal.Laws

noncomputable section

namespace Cert.ReferenceIdeal.RefValue

open Cert.ReferenceIdeal Cert.ReferenceIdeal.Gen Cert.ReferenceIdeal.HandRun Idealize.ShloMosaic Idealize.ShloMosaic.ValueIdx

/-- The filter's row `k` spread over batch and time reads `w(k, 0, d)` everywhere. -/
theorem tapW_apply (w : (⟨S4x1x2048, .f32⟩ : BufTy).Contents (Elt Ideal)) (k : Fin 4) (off : Fin 2 → Nat) (hoff : off = ![k.val, 0])
    (hs : S4x2048.Slices off S1x2048) (b : Fin 8) (t : Fin 4096) (d : Fin 2048) :
    tapW (F := Ideal) off hs w (ix3 b t d) = w (ix3 k 0 d) := by
  subst hoff
  unfold tapW wRows
  rw [broadcastInDim_apply _ bcast_S1x1x2048_S8x4096x2048_0_1_2 _ (ix3 b t d) (ix3 0 0 d) (fun a => match a with
      | ⟨0, _⟩ => by show 0 = if (1 : Nat) = 1 then 0 else b.val; rw [if_pos rfl]
      | ⟨1, _⟩ => by show 0 = if (1 : Nat) = 1 then 0 else t.val; rw [if_pos rfl]
      | ⟨2, _⟩ => by show d.val = if (2048 : Nat) = 1 then 0 else d.val; rw [if_neg (by decide)]),
    broadcastInDim_apply _ bcast_S2048_S1x1x2048_2 _ (ix3 0 0 d) (ix1 d) (fun a => match a with
      | ⟨0, _⟩ => by show d.val = if (2048 : Nat) = 1 then 0 else d.val; rw [if_neg (by decide)]),
    shapeCast_apply _ shapeCasts_S1x2048_S2048 (ix1 d) (ix2 0 d) (by
      rw [Shape.rowMajor_val_two, Shape.rowMajor_val_one]; show 0 * 2048 + d.val = d.val; omega),
    extractStridedSlice_apply _ _ hs (ix2 0 d) (ix2 k d) (fun a => match a with
      | ⟨0, _⟩ => by show k.val = k.val + 0; omega
      | ⟨1, _⟩ => by show d.val = 0 + d.val; omega),
    shapeCast_apply w shapeCasts_S4x1x2048_S4x2048 (ix2 k d) (ix3 k 0 d) (by
      rw [Shape.rowMajor_val_three, Shape.rowMajor_val_two]; show (k.val * 1 + 0) * 2048 + d.val = k.val * 2048 + d.val; omega)]

/-- The padded input read at batch `b`, padded row `s`, channel `d`. -/
theorem padX_apply (x : (⟨S8x4096x2048, .f32⟩ : BufTy).Contents (Elt Ideal)) (b : Fin 8) (s : Fin 4099) (d : Fin 2048) :
    padX (F := Ideal) x (ix3 b s d) = ConvSilu.padded x b s.val d := by
  unfold padX
  have hs := s.isLt
  by_cases h : 3 ≤ s.val
  · rw [ConvSilu.padded_of_ge x b s.val d ⟨s.val - 3, by omega⟩ (by show s.val - 3 + 3 = s.val; omega)]
    exact pad_apply_of_inside _ _ _ x _ pads_S8x4096x2048_S8x4099x2048_000_300_000 h_S_ (ix3 b s d)
      (ix3 b ⟨s.val - 3, by omega⟩ d) (fun a => match a with
        | ⟨0, _⟩ => by show b.val = 0 + b.val * (0 + 1); omega
        | ⟨1, _⟩ => by show s.val = 3 + (s.val - 3) * (0 + 1); omega
        | ⟨2, _⟩ => by show d.val = 0 + d.val * (0 + 1); omega)
  · rw [ConvSilu.padded_of_lt x b s.val d (by omega)]
    refine (pad_apply_of_not_inside _ _ _ x _ pads_S8x4096x2048_S8x4099x2048_000_300_000 h_S_ (ix3 b s d) ⟨1, by decide⟩
      (fun hh => h ?_)).trans ?_
    · exact hh.1
    · show (((0#32 : BitVec 32).toInt : ℝ) : EReal) = 0
      simp

/-- The block of 4096 padded rows starting at row `kk ≤ 3` reads padded row `t + kk`. -/
theorem tapX_apply (x : (⟨S8x4096x2048, .f32⟩ : BufTy).Contents (Elt Ideal)) (k : BitVec 32) (kk : ℕ) (hkk : kk ≤ 3)
    (hk : k.toInt = (kk : Int)) (b : Fin 8) (t : Fin 4096) (d : Fin 2048) :
    tapX (F := Ideal) k x (ix3 b t d) = ConvSilu.padded x b (t.val + kk) d := by
  unfold tapX
  have ht := t.isLt
  have hfit : S8x4099x2048.Slices ![0, kk, 0] S8x4096x2048 := ⟨rfl, fun a => match a with
    | ⟨0, _⟩ => by show 0 + 8 ≤ 8; omega
    | ⟨1, _⟩ => by show kk + 4096 ≤ 4099; omega
    | ⟨2, _⟩ => by show 0 + 2048 ≤ 2048; omega⟩
  rw [Host.dynamicSlice_eq_extractStridedSlice S8x4096x2048 (padX (F := Ideal) x) _ ![0, kk, 0]
      sliceFits_S8x4099x2048_S8x4096x2048 hfit (fun a => match a with
        | ⟨0, _⟩ => by show (0#32 : BitVec 32).toInt = ((0 : ℕ) : Int); rfl
        | ⟨1, _⟩ => by show k.toInt = ((kk : ℕ) : Int); exact hk
        | ⟨2, _⟩ => by show (0#32 : BitVec 32).toInt = ((0 : ℕ) : Int); rfl),
    extractStridedSlice_apply _ _ hfit (ix3 b t d) (ix3 b (⟨t.val + kk, by omega⟩ : Fin 4099) d) (fun a => match a with
      | ⟨0, _⟩ => by show b.val = 0 + b.val; omega
      | ⟨1, _⟩ => by show t.val + kk = kk + t.val; omega
      | ⟨2, _⟩ => by show d.val = 0 + d.val; omega)]
  exact padX_apply x b ⟨t.val + kk, by omega⟩ d

/-- The four-tap sum of the reference at an entry is the specification's sum. -/
theorem convSum_apply (x : (⟨S8x4096x2048, .f32⟩ : BufTy).Contents (Elt Ideal)) (w : (⟨S4x1x2048, .f32⟩ : BufTy).Contents (Elt Ideal))
    (b : Fin 8) (t : Fin 4096) (d : Fin 2048) :
    convSum (F := Ideal) x w (ix3 b t d) = ConvSilu.conv x w b t.val d := by
  unfold convSum ConvSilu.conv
  show Ideal.ofBits .f32 0x00000000#32
        + tapW (F := Ideal) ![0, 0] slices_S4x2048_S1x2048_0_0 w (ix3 b t d) * tapX (F := Ideal) 0#32 x (ix3 b t d)
        + tapW (F := Ideal) ![1, 0] slices_S4x2048_S1x2048_1_0 w (ix3 b t d) * tapX (F := Ideal) 1#32 x (ix3 b t d)
        + tapW (F := Ideal) ![2, 0] slices_S4x2048_S1x2048_2_0 w (ix3 b t d) * tapX (F := Ideal) 2#32 x (ix3 b t d)
        + tapW (F := Ideal) ![3, 0] slices_S4x2048_S1x2048_3_0 w (ix3 b t d) * tapX (F := Ideal) 3#32 x (ix3 b t d) = _
  rw [Ideal.ofBits_zero_f32, zero_add]
  refine congrArg₂ (· + ·) (congrArg₂ (· + ·) (congrArg₂ (· + ·) ?_ ?_) ?_) ?_
  · exact congrArg₂ (· * ·) (tapW_apply w 0 _ rfl _ b t d) (tapX_apply x 0#32 0 (by omega) (by decide) b t d)
  · exact congrArg₂ (· * ·) (tapW_apply w 1 _ rfl _ b t d) (tapX_apply x 1#32 1 (by omega) (by decide) b t d)
  · exact congrArg₂ (· * ·) (tapW_apply w 2 _ rfl _ b t d) (tapX_apply x 2#32 2 (by omega) (by decide) b t d)
  · exact congrArg₂ (· * ·) (tapW_apply w 3 _ rfl _ b t d) (tapX_apply x 3#32 3 (by omega) (by decide) b t d)

/-- THE REFERENCE IS THE SPECIFICATION: its composed term, at the ideal instance, is `ConvSilu.result`. -/
theorem out_eq_result (x : (⟨S8x4096x2048, .f32⟩ : BufTy).Contents (Elt Ideal)) (w : (⟨S4x1x2048, .f32⟩ : BufTy).Contents (Elt Ideal)) :
    out (F := Ideal) x w = ConvSilu.result x w := by
  funext i
  obtain ⟨b, t, d, rfl⟩ : ∃ (b : Fin 8) (t : Fin 4096) (d : Fin 2048), i = ix3 b t d := ⟨i 0, i 1, i 2, eq_ix3 i⟩
  rw [ConvSilu.result_apply]
  unfold out siluOf ConvSilu.silu
  show convSum (F := Ideal) x w (ix3 b t d)
      * Ideal.div (Ideal.ofBits .f32 0x3F800000#32)
          (Ideal.ofBits .f32 0x3F800000#32 + Ideal.exp (-(convSum (F := Ideal) x w (ix3 b t d)))) = _
  rw [ConvSilu.div_one_add_exp_neg, convSum_apply]

end Cert.ReferenceIdeal.RefValue

end
-- ==== Proof.lean ====
/-
  A causal depthwise convolution of width four along time followed by a · 1/(1 + e^(-a)): the kernel equals its jnp
  reference over the extended reals.

  With x of shape [8, 4096, 2048] (batch, time, channel), w of shape [4, 1, 2048] (tap, 1, channel), and P the input
  padded with three zero rows in front of the time axis, both programs compute at (b, t, d)

      A = ((w(0,0,d)·P(b,t,d) + w(1,0,d)·P(b,t+1,d)) + w(2,0,d)·P(b,t+2,d)) + w(3,0,d)·P(b,t+3,d),   result = A · logistic A

  (Proof/Spec.lean).  The kernel walks each batch row in four tiles of 1024 time steps and carries the last three rows
  of a tile to the next one, starting each batch row from zeros: the carried rows are exactly the padded rows that
  precede the tile, so every tile is the specification on its rows, and the 32 tiles cover the result
  (Proof/Pieces.lean, Proof/Payload.lean, Proof/Tiles.lean).  The reference pads once, takes four shifted blocks of the
  padded array, adds the products onto the zero array, and spells the logistic function as 1 / (1 + exp (- y))
  (Proof/RefRun.lean, Proof/RefValue.lean).  The two meet by 0 + a = a and by the definition of the logistic function
  on the extended reals; nothing needs the inputs to be finite.  The idealization rewrote nothing, so the kernel's
  idealization is its own text read over the extended reals.
-/
import proofs.«125260_j5016521802520_1_alg».proof.Defs
import proofs.«125260_j5016521802520_1_alg».proof.Proof.Gen.Kernel
import proofs.«125260_j5016521802520_1_alg».proof.Proof.Gen.Kernel.Skeleton
import proofs.«125260_j5016521802520_1_alg».proof.Proof.Gen.Kernel.Launch
import proofs.«125260_j5016521802520_1_alg».proof.Proof.Gen.Kernel.Points
import proofs.«125260_j5016521802520_1_alg».proof.Proof.Gen.Kernel.Frame
import proofs.«125260_j5016521802520_1_alg».proof.Proof.Gen.KernelIdeal
import proofs.«125260_j5016521802520_1_alg».proof.Proof.Gen.KernelIdeal.Skeleton
import proofs.«125260_j5016521802520_1_alg».proof.Proof.Gen.KernelIdeal.Launch
import proofs.«125260_j5016521802520_1_alg».proof.Proof.Gen.KernelIdeal.Points
import proofs.«125260_j5016521802520_1_alg».proof.Proof.Gen.KernelIdeal.Frame
import proofs.«125260_j5016521802520_1_alg».proof.Proof.Gen.ReferenceIdeal
import proofs.«125260_j5016521802520_1_alg».proof.Proof.Gen.Pre_finite_inputs
import proofs.«125260_j5016521802520_1_alg».proof.Proof.Gen.KernelIdeal.Value
import proofs.«125260_j5016521802520_1_alg».proof.Proof.Tiles
import proofs.«125260_j5016521802520_1_alg».proof.Proof.RefRun
import proofs.«125260_j5016521802520_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and leaves its arguments alone: its run with the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- The idealization rewrote no operation. -/
theorem preserves : Cert.preserves_Kernel_KernelIdeal := trivial

/-- Over the extended reals the kernel's result array ends at the specification of its arguments (the tiles) and the
    reference's at its composed term, which is the specification too, of arguments that agree. -/
theorem algebraic : Cert.algebraic_KernelIdeal_ReferenceIdeal := by
  intro m ρ m' ρ' _ hagree
  refine ⟨_, Cert.KernelIdeal.Tiles.run m ρ, ?_⟩
  refine (θ_run Cert.ReferenceIdeal.defs _ _).mono (fun _ h c => ⟨(h c).1.trans ?_, (h c).2⟩)
    (Cert.ReferenceIdeal.HandRun.run (F := Ideal) m' ρ')
  rw [Cert.ReferenceIdeal.RefValue.out_eq_result, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
